-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let c0_i32 : BitVec 32 := 0#32
  let v1 : BitVec 1 := Scalar.cmpi .eq c16_i32 c0_i32
  let c1_i32_0 : BitVec 32 := 1#32
  let v2 : BitVec 32 := Scalar.select v1 c1_i32_0 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![v10.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  concatenates_S512x1024_S512x1024_S1024x1024_d0 : Shape.Concatenates [S512x1024, S512x1024] S1024x1024 0
  slices_S1024x1024_o510_0_S512x1024 : S1024x1024.Slices ![510, 0] S512x1024
  slices_S1024x1024_o509_0_S512x1024 : S1024x1024.Slices ![509, 0] S512x1024
  slices_S1024x1024_o507_0_S512x1024 : S1024x1024.Slices ![507, 0] S512x1024
  slices_S1024x1024_o505_0_S512x1024 : S1024x1024.Slices ![505, 0] S512x1024
  slices_S1024x1024_o501_0_S512x1024 : S1024x1024.Slices ![501, 0] S512x1024
  slices_S1024x1024_o499_0_S512x1024 : S1024x1024.Slices ![499, 0] S512x1024
  slices_S1024x1024_o495_0_S512x1024 : S1024x1024.Slices ![495, 0] S512x1024
  slices_S1024x1024_o493_0_S512x1024 : S1024x1024.Slices ![493, 0] S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x4096.size a
  hwx0_1 : ∀ i : grid0.Coords, EltTy.bits .f32 = 32 ∨ (Rect.block (s := S8192x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S2x4096 : Shape := ⟨2, ![2, 4096]⟩
abbrev S8190x4096 : Shape := ⟨2, ![8190, 4096]⟩
abbrev S3x4096 : Shape := ⟨2, ![3, 4096]⟩
abbrev S8189x4096 : Shape := ⟨2, ![8189, 4096]⟩
abbrev S5x4096 : Shape := ⟨2, ![5, 4096]⟩
abbrev S8187x4096 : Shape := ⟨2, ![8187, 4096]⟩
abbrev S7x4096 : Shape := ⟨2, ![7, 4096]⟩
abbrev S8185x4096 : Shape := ⟨2, ![8185, 4096]⟩
abbrev S11x4096 : Shape := ⟨2, ![11, 4096]⟩
abbrev S8181x4096 : Shape := ⟨2, ![8181, 4096]⟩
abbrev S13x4096 : Shape := ⟨2, ![13, 4096]⟩
abbrev S8179x4096 : Shape := ⟨2, ![8179, 4096]⟩
abbrev S17x4096 : Shape := ⟨2, ![17, 4096]⟩
abbrev S8175x4096 : Shape := ⟨2, ![8175, 4096]⟩
abbrev S19x4096 : Shape := ⟨2, ![19, 4096]⟩
abbrev S8173x4096 : Shape := ⟨2, ![8173, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192x4096, .f32⟩
  | .hbm, ⟨3, _⟩ => ⟨S2x4096, .f32⟩
  | .hbm, ⟨4, _⟩ => ⟨S8190x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S3x4096, .f32⟩
  | .hbm, ⟨11, _⟩ => ⟨S8189x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S5x4096, .f32⟩
  | .hbm, ⟨18, _⟩ => ⟨S8187x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S7x4096, .f32⟩
  | .hbm, ⟨25, _⟩ => ⟨S8185x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S11x4096, .f32⟩
  | .hbm, ⟨32, _⟩ => ⟨S8181x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S13x4096, .f32⟩
  | .hbm, ⟨39, _⟩ => ⟨S8179x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S17x4096, .f32⟩
  | .hbm, ⟨46, _⟩ => ⟨S8175x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S19x4096, .f32⟩
  | .hbm, ⟨53, _⟩ => ⟨S8173x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S8192x4096, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_v0 : Ref sig .tc := ⟨.hbm, 17, rfl⟩
abbrev main_call2_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call3_v0 : Ref sig .tc := ⟨.hbm, 24, rfl⟩
abbrev main_call3_v1 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call4_v0 : Ref sig .tc := ⟨.hbm, 31, rfl⟩
abbrev main_call4_v1 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call5_v0 : Ref sig .tc := ⟨.hbm, 38, rfl⟩
abbrev main_call5_v1 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call6_v0 : Ref sig .tc := ⟨.hbm, 45, rfl⟩
abbrev main_call6_v1 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call7_v0 : Ref sig .tc := ⟨.hbm, 52, rfl⟩
abbrev main_call7_v1 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S8192x4096_S2x4096_8190_0 : S8192x4096.Slices ![8190, 0] S2x4096
  slices_S8192x4096_S8190x4096_0_0 : S8192x4096.Slices ![0, 0] S8190x4096
  concatenates_S2x4096_S8190x4096_S8192x4096_d0 : Shape.Concatenates [S2x4096, S8190x4096] S8192x4096 0
  slices_S8192x4096_S3x4096_8189_0 : S8192x4096.Slices ![8189, 0] S3x4096
  slices_S8192x4096_S8189x4096_0_0 : S8192x4096.Slices ![0, 0] S8189x4096
  concatenates_S3x4096_S8189x4096_S8192x4096_d0 : Shape.Concatenates [S3x4096, S8189x4096] S8192x4096 0
  slices_S8192x4096_S5x4096_8187_0 : S8192x4096.Slices ![8187, 0] S5x4096
  slices_S8192x4096_S8187x4096_0_0 : S8192x4096.Slices ![0, 0] S8187x4096
  concatenates_S5x4096_S8187x4096_S8192x4096_d0 : Shape.Concatenates [S5x4096, S8187x4096] S8192x4096 0
  slices_S8192x4096_S7x4096_8185_0 : S8192x4096.Slices ![8185, 0] S7x4096
  slices_S8192x4096_S8185x4096_0_0 : S8192x4096.Slices ![0, 0] S8185x4096
  concatenates_S7x4096_S8185x4096_S8192x4096_d0 : Shape.Concatenates [S7x4096, S8185x4096] S8192x4096 0
  slices_S8192x4096_S11x4096_8181_0 : S8192x4096.Slices ![8181, 0] S11x4096
  slices_S8192x4096_S8181x4096_0_0 : S8192x4096.Slices ![0, 0] S8181x4096
  concatenates_S11x4096_S8181x4096_S8192x4096_d0 : Shape.Concatenates [S11x4096, S8181x4096] S8192x4096 0
  slices_S8192x4096_S13x4096_8179_0 : S8192x4096.Slices ![8179, 0] S13x4096
  slices_S8192x4096_S8179x4096_0_0 : S8192x4096.Slices ![0, 0] S8179x4096
  concatenates_S13x4096_S8179x4096_S8192x4096_d0 : Shape.Concatenates [S13x4096, S8179x4096] S8192x4096 0
  slices_S8192x4096_S17x4096_8175_0 : S8192x4096.Slices ![8175, 0] S17x4096
  slices_S8192x4096_S8175x4096_0_0 : S8192x4096.Slices ![0, 0] S8175x4096
  concatenates_S17x4096_S8175x4096_S8192x4096_d0 : Shape.Concatenates [S17x4096, S8175x4096] S8192x4096 0
  slices_S8192x4096_S19x4096_8173_0 : S8192x4096.Slices ![8173, 0] S19x4096
  slices_S8192x4096_S8173x4096_0_0 : S8192x4096.Slices ![0, 0] S8173x4096
  concatenates_S19x4096_S8173x4096_S8192x4096_d0 : Shape.Concatenates [S19x4096, S8173x4096] S8192x4096 0

variable [Facts₀]

class Facts : Prop extends Facts₀ where

variable [Facts]
-- ==== Proof.BitsBody.lean ====
/-
  The kernel body at one grid point, as a Hoare triple.

  The body reads two staged blocks of 512 rows by 1024 columns — the block of the current rows and the
  block of the 512 rows before them — and overwrites the third staged block with one value: the current
  block plus a weighted sum of eight row-shifted windows cut out of the two blocks stacked. Nothing else
  is touched: the two input buffers are left as they were found.
-/
import proofs.«132993_j23081154249466_1_alg».proof.Proof.Gen.Kernel.Launch
import proofs.«132993_j23081154249466_1_alg».proof.Proof.Gen.Kernel.Skeleton
import proofs.«132993_j23081154249466_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole 512 × 1024 block as a rectangle: every load and the one store of the body go through it. -/
abbrev whole : Rect S512x1024 := Rect.unit (s := S512x1024) ![0, 0] S512x1024.size inb_S512x1024_S512x1024_0_0

/-- What the output block holds after the body, from the current block `x0` and the previous block `x1`:
    the body's single store, which covers the block. -/
def outBlock (x0 : Vec F S512x1024 .f32) (x1 : Vec F S512x1024 .f32) : Vec F S512x1024 .f32 :=
  View.canon [⟨whole, k0_pay1 (View.ld x0 whole) (View.ld x1 whole)⟩]

/-- One store through the whole block covers the block. -/
theorem whole_covers (p0 : Vec F S512x1024 .f32) (y : S512x1024.Idx) :
    ∃ pc ∈ ([⟨whole, p0⟩] : List (View.Piece (Elt F) S512x1024 .f32)), y ∈ pc.1.set :=
  View.cover_of_tiled [⟨whole, p0⟩] S512x1024.size (by rfl) y

set_option maxHeartbeats 1000000 in
/-- The body on three whole staging buffers — the two inputs at contents `x0`, `x1`, the output at anything —
    runs to a state with the inputs unchanged and the output at `outBlock x0 x1`. -/
theorem sound_kernel (c : Dev nD) (E : Set ℕ) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (x0 : Vec F S512x1024 .f32) (x1 : Vec F S512x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole_covers _)

end Cert.Kernel.Halo

end
-- ==== Proof.BitsRun.lean ====
/-
  The launch of the kernel over its 16 × 4 grid, and what the run leaves in memory.

  The pallas call hands ONE array to the kernel through TWO input windows: window 0 stages the block of the
  current 512 rows, window 1 the block of the 512 rows before them (cyclically: the first block's predecessor
  is the last). Both windows only read, so the array is held at half the full share by each; the output
  window holds its own array outright. Each input buffer holds, at every point, the block its window's index
  map names; the output buffer is overwritten whole at every point and written back. From this the run ends
  with the argument array as it was and the result array at the library's point-by-point overwrite of it.
-/
import proofs.«132993_j23081154249466_1_alg».proof.Proof.BitsBody

set_option maxRecDepth 16384

noncomputable section

namespace Cert.Kernel.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and the arrays there -/

/-- The TensorCore's buffers when the region is entered: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as launched; after the body each input buffer still at its block and the output
    buffer at the body's value of the two input blocks; nothing carried between points; the shared argument
    array split in halves between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

/-- Both input windows are fetched at every point, so each input buffer holds its window's block there. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, split between its two readers -/

/-- The two arrays behind the three windows, each held whole, give the windows' holdings: the argument array's
    full share is its left half (the window of the current rows) and its right half (the window of the rows
    before), and the result array goes whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg0, main_v0} from by decide]
  rw [bigSep_insert (by decide), bigSep_singleton]
  have e0 : (cfg0.win 0).arr.view.set = Finset.univ := (arr_whole0 0).set_eq_univ
  have e2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [e0, e2, s0, s1, s2]
  show (iprop(((c.tc : Thread nD τ).loc main_arg0 ↦{fullShare} V m c main_arg0)
      ∗ ((c.tc : Thread nD τ).loc main_v0 ↦{fullShare} V m c main_v0)) : sProp 𝕄)
    ⊢ iprop(((c.tc : Thread nD τ).loc main_arg0 ↦{fullShare.left} V m c main_arg0)
    ∗ ((c.tc : Thread nD τ).loc main_arg0 ↦{fullShare.right} V m c main_arg0)
    ∗ ((c.tc : Thread nD τ).loc main_v0 ↦{fullShare} V m c main_v0))
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

set_option backward.isDefEq.respectTransparency.types false in
/-- From any launch memory with zero counters every weakly fair execution of the program terminates, and every
    final state has each window's array at the library's overwrite of its entry contents by the blocks the
    points wrote back. Windows 0 and 1 speak of the same array. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show (iprop(emp ∗ Pipeline.scopedRest (Ix := Unit) (Name := ℕ) (U := UR sig nD τ) (Lvl := ℕ) (Val := Elt F) spec0 c) : sProp 𝕄) ⊢ Pipeline.scopedRest (Ix := Unit) (Name := ℕ) (U := UR sig nD τ) (Lvl := ℕ) (Val := Elt F) spec0 c
      iintro ⟨-, H⟩
      iexact H)
    (hout := fun c => by
      show (Pipeline.scopedRest (Ix := Unit) (Name := ℕ) (U := UR sig nD τ) (Lvl := ℕ) (Val := Elt F) spec0 c : sProp 𝕄) ⊢ iprop(emp ∗ Pipeline.scopedRest (Ix := Unit) (Name := ℕ) (U := UR sig nD τ) (Lvl := ℕ) (Val := Elt F) spec0 c)
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## What the run leaves -/

/-- The argument array ends as launched (an input window's array is never written), and the result array ends at
    the library's overwrite of its entry contents by the written-back blocks. -/
theorem run_out : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (((dats m 0 c).arrAt_in 0 rfl _).trans (A_eq m c 0))⟩) (run_main m ρ)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_out m ρ)

end Cert.Kernel.Halo

end
-- ==== Proof.IdealBody.lean ====
/-
  The kernel body at one grid point, as a Hoare triple.

  The body reads two staged blocks of 512 rows by 1024 columns — the block of the current rows and the
  block of the 512 rows before them — and overwrites the third staged block with one value: the current
  block plus a weighted sum of eight row-shifted windows cut out of the two blocks stacked. Nothing else
  is touched: the two input buffers are left as they were found.
-/
import proofs.«132993_j23081154249466_1_alg».proof.Proof.Gen.KernelIdeal.Launch
import proofs.«132993_j23081154249466_1_alg».proof.Proof.Gen.KernelIdeal.Skeleton
import proofs.«132993_j23081154249466_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole 512 × 1024 block as a rectangle: every load and the one store of the body go through it. -/
abbrev whole : Rect S512x1024 := Rect.unit (s := S512x1024) ![0, 0] S512x1024.size inb_S512x1024_S512x1024_0_0

/-- What the output block holds after the body, from the current block `x0` and the previous block `x1`:
    the body's single store, which covers the block. -/
def outBlock (x0 : Vec F S512x1024 .f32) (x1 : Vec F S512x1024 .f32) : Vec F S512x1024 .f32 :=
  View.canon [⟨whole, k0_pay1 (View.ld x0 whole) (View.ld x1 whole)⟩]

/-- One store through the whole block covers the block. -/
theorem whole_covers (p0 : Vec F S512x1024 .f32) (y : S512x1024.Idx) :
    ∃ pc ∈ ([⟨whole, p0⟩] : List (View.Piece (Elt F) S512x1024 .f32)), y ∈ pc.1.set :=
  View.cover_of_tiled [⟨whole, p0⟩] S512x1024.size (by rfl) y

set_option maxHeartbeats 1000000 in
/-- The body on three whole staging buffers — the two inputs at contents `x0`, `x1`, the output at anything —
    runs to a state with the inputs unchanged and the output at `outBlock x0 x1`. -/
theorem sound_kernel (c : Dev nD) (E : Set ℕ) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (x0 : Vec F S512x1024 .f32) (x1 : Vec F S512x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole_covers _)

end Cert.KernelIdeal.Halo

end
-- ==== Proof.IdealRun.lean ====
/-
  The launch of the kernel over its 16 × 4 grid, and what the run leaves in memory.

  The pallas call hands ONE array to the kernel through TWO input windows: window 0 stages the block of the
  current 512 rows, window 1 the block of the 512 rows before them (cyclically: the first block's predecessor
  is the last). Both windows only read, so the array is held at half the full share by each; the output
  window holds its own array outright. Each input buffer holds, at every point, the block its window's index
  map names; the output buffer is overwritten whole at every point and written back. From this the run ends
  with the argument array as it was and the result array at the library's point-by-point overwrite of it.
-/
import proofs.«132993_j23081154249466_1_alg».proof.Proof.IdealBody

set_option maxRecDepth 16384

noncomputable section

namespace Cert.KernelIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and the arrays there -/

/-- The TensorCore's buffers when the region is entered: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as launched; after the body each input buffer still at its block and the output
    buffer at the body's value of the two input blocks; nothing carried between points; the shared argument
    array split in halves between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

/-- Both input windows are fetched at every point, so each input buffer holds its window's block there. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, split between its two readers -/

/-- The two arrays behind the three windows, each held whole, give the windows' holdings: the argument array's
    full share is its left half (the window of the current rows) and its right half (the window of the rows
    before), and the result array goes whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg0, main_v0} from by decide]
  rw [bigSep_insert (by decide), bigSep_singleton]
  have e0 : (cfg0.win 0).arr.view.set = Finset.univ := (arr_whole0 0).set_eq_univ
  have e2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [e0, e2, s0, s1, s2]
  show (iprop(((c.tc : Thread nD τ).loc main_arg0 ↦{fullShare} V m c main_arg0)
      ∗ ((c.tc : Thread nD τ).loc main_v0 ↦{fullShare} V m c main_v0)) : sProp 𝕄)
    ⊢ iprop(((c.tc : Thread nD τ).loc main_arg0 ↦{fullShare.left} V m c main_arg0)
    ∗ ((c.tc : Thread nD τ).loc main_arg0 ↦{fullShare.right} V m c main_arg0)
    ∗ ((c.tc : Thread nD τ).loc main_v0 ↦{fullShare} V m c main_v0))
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

set_option backward.isDefEq.respectTransparency.types false in
/-- From any launch memory with zero counters every weakly fair execution of the program terminates, and every
    final state has each window's array at the library's overwrite of its entry contents by the blocks the
    points wrote back. Windows 0 and 1 speak of the same array. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show (iprop(emp ∗ Pipeline.scopedRest (Ix := Unit) (Name := ℕ) (U := UR sig nD τ) (Lvl := ℕ) (Val := Elt F) spec0 c) : sProp 𝕄) ⊢ Pipeline.scopedRest (Ix := Unit) (Name := ℕ) (U := UR sig nD τ) (Lvl := ℕ) (Val := Elt F) spec0 c
      iintro ⟨-, H⟩
      iexact H)
    (hout := fun c => by
      show (Pipeline.scopedRest (Ix := Unit) (Name := ℕ) (U := UR sig nD τ) (Lvl := ℕ) (Val := Elt F) spec0 c : sProp 𝕄) ⊢ iprop(emp ∗ Pipeline.scopedRest (Ix := Unit) (Name := ℕ) (U := UR sig nD τ) (Lvl := ℕ) (Val := Elt F) spec0 c)
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## What the run leaves -/

/-- The argument array ends as launched (an input window's array is never written), and the result array ends at
    the library's overwrite of its entry contents by the written-back blocks. -/
theorem run_out : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (((dats m 0 c).arrAt_in 0 rfl _).trans (A_eq m c 0))⟩) (run_main m ρ)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_out m ρ)

end Cert.KernelIdeal.Halo

end
-- ==== Proof.HaloSpec.lean ====
/-
  The function both programs compute, stated once for any float instance.

  Over an array of 8192 rows and 4096 columns, the result at row r, column k is the entry there plus a
  weighted sum of the entries of the same column at rows r − 2, r − 3, r − 5, r − 7, r − 11, r − 13, r − 17 and
  r − 19, the rows counted cyclically; the weights are eight fixed single-precision words, and the sum is
  accumulated from zero in that order. Only the operations and their order are fixed here, not what the
  float operations mean, so the same statement is read at any instance.
-/
import Idealize.ShloMosaic.PureOps
import Idealize.ShloMosaic.Lib.ValueIdx

noncomputable section

namespace Cert.HaloSpec

open Idealize.ShloMosaic Idealize.ShloMosaic.ValueIdx

variable {F : FTy → Type} [FloatOps F]

/-- The array's shape. -/
abbrev Arr : Shape := ⟨2, ![8192, 4096]⟩

/-- The index `p` rows back in the same column, the rows counted cyclically modulo 8192. -/
def back (p : Nat) (i : Arr.Idx) : Arr.Idx :=
  ix2 (⟨((i 0).val + (8192 - p)) % 8192, Nat.mod_lt _ (by decide)⟩ : Fin 8192) (⟨(i 1).val, (i 1).isLt⟩ : Fin 4096)

theorem back_row (p : Nat) (i : Arr.Idx) : ((back p i) 0).val = ((i 0).val + (8192 - p)) % 8192 := rfl
theorem back_col (p : Nat) (i : Arr.Idx) : ((back p i) 1).val = (i 1).val := rfl

/-- One tap: the entry `p` rows back, times the weight whose single-precision word is `w`. -/
def tap (x : Arr.Idx → F .f32) (p : Nat) (w : BitVec 32) (i : Arr.Idx) : F .f32 :=
  FloatOps.mulf (x (back p i)) (FloatOps.ofBits .f32 w)

/-- The result array: each entry plus its eight taps accumulated from zero. -/
def G (x : Arr.Idx → F .f32) : Arr.Idx → F .f32 := fun i =>
  FloatOps.addf (x i) (FloatOps.addf (FloatOps.addf (FloatOps.addf (FloatOps.addf (FloatOps.addf (FloatOps.addf (FloatOps.addf (FloatOps.addf (FloatOps.ofBits .f32 0x00000000#32) (tap x 2 0x3F317218#32 i)) (tap x 3 0x3F8C9F54#32 i)) (tap x 5 0x3FCE0210#32 i)) (tap x 7 0x3FF91395#32 i)) (tap x 11 0x4019771E#32 i)) (tap x 13 0x40242821#32 i)) (tap x 17 0x4035535E#32 i)) (tap x 19 0x403C71B0#32 i))

end Cert.HaloSpec

end
-- ==== Proof.IdealBlock.lean ====
/-
  The body's value at one entry of the block, as an entry of the specified array.

  The body stacks the block of the previous 512 rows on the block of the current 512 rows and cuts, for each
  shift p, the 512-row window that starts p rows above the current block. Row r of that window is row r − p of
  the current block when r ≥ p, and row 512 − p + r of the previous block otherwise. When the current block sits
  at block row I of the array and the previous block at block row I − 1 counted cyclically among the 16 block
  rows, both cases are the array's row 512·I + r − p counted cyclically among its 8192 rows: the body's value
  at an entry is the specification's at the array entry under it.
-/
import proofs.«132993_j23081154249466_1_alg».proof.Proof.Gen.KernelIdeal.Skeleton
import proofs.«132993_j23081154249466_1_alg».proof.Proof.HaloSpec
import Idealize.ShloMosaic.Lib.Pipeline.Value

set_option maxRecDepth 16384

noncomputable section

namespace Cert.KernelIdeal.Halo

open Cert.KernelIdeal Cert.KernelIdeal.Gen Cert.HaloSpec
open Idealize.ShloMosaic Idealize.ShloMosaic.ValueIdx

variable {F : FTy → Type} [FloatOps F] {α : Type}

/-! ## The shifted window of two stacked blocks -/

/-- Row r of the 512-row window starting p rows above the second of two stacked 512-row blocks (`prev` on top of
    `cur`): row r − p of `cur` when p ≤ r, else row 512 − p + r of `prev`. -/
def shifted (p : Nat) (hp : p ≤ 512) (cur prev : S512x1024.Idx → α) : S512x1024.Idx → α := fun j =>
  if h : p ≤ (j 0).val
  then cur (ix2 (⟨(j 0).val - p, by have hj : (j 0).val < 512 := (j 0).isLt; omega⟩ : Fin 512) (⟨(j 1).val, (j 1).isLt⟩ : Fin 1024))
  else prev (ix2 (⟨(j 0).val + (512 - p), by omega⟩ : Fin 512) (⟨(j 1).val, (j 1).isLt⟩ : Fin 1024))

/-- The slice at row offset o = 512 − p of the two blocks concatenated is that window. -/
theorem slice_stack (p o : Nat) (hp : p ≤ 512) (ho : o + p = 512) (cur prev : S512x1024.Idx → α)
    (hc : Shape.Concatenates [S512x1024, S512x1024] S1024x1024 0) (hs : S1024x1024.Slices ![o, 0] S512x1024) :
    extractStridedSlice S512x1024 ![o, 0] (concatenate S1024x1024 0 [⟨S512x1024, prev⟩, ⟨S512x1024, cur⟩] hc) hs
      = shifted p hp cur prev := by
  funext j
  have hj0 : (j 0).val < 512 := (j 0).isLt
  have hj1 : (j 1).val < 1024 := (j 1).isLt
  refine (extractStridedSlice_apply (s := S1024x1024) (t := S512x1024) ![o, 0] _ hs j
    (ix2 (⟨o + (j 0).val, by omega⟩ : Fin 1024) (⟨(j 1).val, hj1⟩ : Fin 1024))
    (fun a => match a with
      | ⟨0, _⟩ => rfl
      | ⟨1, _⟩ => by show (j 1).val = 0 + (j 1).val; omega)).trans ?_
  unfold shifted
  by_cases h : p ≤ (j 0).val
  · rw [dif_pos h]
    exact concatenate_pair_apply_right (t := S1024x1024) (s₁ := S512x1024) (s₂ := S512x1024) (0 : Fin 2) prev cur hc _ rfl rfl
      (ix2 (⟨(j 0).val - p, by omega⟩ : Fin 512) (⟨(j 1).val, hj1⟩ : Fin 1024))
      (fun b hb => match b, hb with | ⟨0, _⟩, hb => absurd rfl hb | ⟨1, _⟩, _ => rfl)
      (by show (j 0).val - p + 512 = o + (j 0).val; omega)
  · rw [dif_neg h]
    refine (concatenate_pair_apply_left (t := S1024x1024) (s₁ := S512x1024) (s₂ := S512x1024) (0 : Fin 2) prev cur hc _ rfl
      (ix2 (⟨o + (j 0).val, by omega⟩ : Fin 512) (⟨(j 1).val, hj1⟩ : Fin 1024))
      (fun b => match b with | ⟨0, _⟩ => rfl | ⟨1, _⟩ => rfl)).trans ?_
    exact congrArg prev (funext fun a => match a with
      | ⟨0, _⟩ => Fin.ext (by show o + (j 0).val = (j 0).val + (512 - p); omega)
      | ⟨1, _⟩ => Fin.ext rfl)

/-! ## The body's value at an entry -/

/-- The body's stored value at an entry of the block: the current block's entry plus, accumulated from zero, each
    shifted window's entry times its weight. -/
theorem pay_eq (cur prev : Vec F S512x1024 .f32) (j : S512x1024.Idx) :
    k0_pay1 cur prev j = FloatOps.addf (cur j) (FloatOps.addf (FloatOps.addf (FloatOps.addf (FloatOps.addf (FloatOps.addf (FloatOps.addf (FloatOps.addf (FloatOps.addf (FloatOps.ofBits .f32 0x00000000#32) (FloatOps.mulf (shifted 2 (by decide) cur prev j) (FloatOps.ofBits .f32 0x3F317218#32))) (FloatOps.mulf (shifted 3 (by decide) cur prev j) (FloatOps.ofBits .f32 0x3F8C9F54#32))) (FloatOps.mulf (shifted 5 (by decide) cur prev j) (FloatOps.ofBits .f32 0x3FCE0210#32))) (FloatOps.mulf (shifted 7 (by decide) cur prev j) (FloatOps.ofBits .f32 0x3FF91395#32))) (FloatOps.mulf (shifted 11 (by decide) cur prev j) (FloatOps.ofBits .f32 0x4019771E#32))) (FloatOps.mulf (shifted 13 (by decide) cur prev j) (FloatOps.ofBits .f32 0x40242821#32))) (FloatOps.mulf (shifted 17 (by decide) cur prev j) (FloatOps.ofBits .f32 0x4035535E#32))) (FloatOps.mulf (shifted 19 (by decide) cur prev j) (FloatOps.ofBits .f32 0x403C71B0#32))) := by
  unfold k0_pay1
  simp only [slice_stack 2 510 (by decide) rfl cur prev,
    slice_stack 3 509 (by decide) rfl cur prev,
    slice_stack 5 507 (by decide) rfl cur prev,
    slice_stack 7 505 (by decide) rfl cur prev,
    slice_stack 11 501 (by decide) rfl cur prev,
    slice_stack 13 499 (by decide) rfl cur prev,
    slice_stack 17 495 (by decide) rfl cur prev,
    slice_stack 19 493 (by decide) rfl cur prev]
  rfl

/-! ## From the block to the array -/

/-- The array index under block (I, J) at the in-block index y. -/
def under (I J : Nat) (hI : I < 16) (hJ : J < 4) (y : S512x1024.Idx) : Arr.Idx :=
  ix2 (⟨I * 512 + (y 0).val, by have h : (y 0).val < 512 := (y 0).isLt; omega⟩ : Fin 8192)
    (⟨J * 1024 + (y 1).val, by have h : (y 1).val < 1024 := (y 1).isLt; omega⟩ : Fin 4096)

/-- With `cur` the array's block (I, J) and `prev` its block (I − 1 mod 16, J), the window shifted by p reads the
    array p rows back, cyclically, from the entry under the block. -/
theorem shifted_eq (p : Nat) (hp1 : 1 ≤ p) (hp : p ≤ 512) (x : Arr.Idx → α) (cur prev : S512x1024.Idx → α)
    (I I' J : Nat) (hI : I < 16) (hI' : I' < 16) (hrel : I' = (I + 15) % 16) (hJ : J < 4)
    (hcur : ∀ y, cur y = x (under I J hI hJ y)) (hprev : ∀ y, prev y = x (under I' J hI' hJ y)) (j : S512x1024.Idx) :
    shifted p hp cur prev j = x (back p (under I J hI hJ j)) := by
  have hj0 : (j 0).val < 512 := (j 0).isLt
  unfold shifted
  by_cases h : p ≤ (j 0).val
  · rw [dif_pos h, hcur]
    exact congrArg x (funext fun a => match a with
      | ⟨0, _⟩ => Fin.ext (by show I * 512 + ((j 0).val - p) = (I * 512 + (j 0).val + (8192 - p)) % 8192; omega)
      | ⟨1, _⟩ => Fin.ext rfl)
  · rw [dif_neg h, hprev]
    exact congrArg x (funext fun a => match a with
      | ⟨0, _⟩ => Fin.ext (by show I' * 512 + ((j 0).val + (512 - p)) = (I * 512 + (j 0).val + (8192 - p)) % 8192; omega)
      | ⟨1, _⟩ => Fin.ext rfl)

/-- The body's value at an entry of the block is the specified array's entry under it. -/
theorem point_eq (x : Arr.Idx → F .f32) (cur prev : Vec F S512x1024 .f32)
    (I I' J : Nat) (hI : I < 16) (hI' : I' < 16) (hrel : I' = (I + 15) % 16) (hJ : J < 4)
    (hcur : ∀ y, cur y = x (under I J hI hJ y)) (hprev : ∀ y, prev y = x (under I' J hI' hJ y)) (j : S512x1024.Idx) :
    k0_pay1 cur prev j = G x (under I J hI hJ j) := by
  rw [pay_eq]
  unfold G tap
  rw [shifted_eq 2 (by decide) (by decide) x cur prev I I' J hI hI' hrel hJ hcur hprev j,
    shifted_eq 3 (by decide) (by decide) x cur prev I I' J hI hI' hrel hJ hcur hprev j,
    shifted_eq 5 (by decide) (by decide) x cur prev I I' J hI hI' hrel hJ hcur hprev j,
    shifted_eq 7 (by decide) (by decide) x cur prev I I' J hI hI' hrel hJ hcur hprev j,
    shifted_eq 11 (by decide) (by decide) x cur prev I I' J hI hI' hrel hJ hcur hprev j,
    shifted_eq 13 (by decide) (by decide) x cur prev I I' J hI hI' hrel hJ hcur hprev j,
    shifted_eq 17 (by decide) (by decide) x cur prev I I' J hI hI' hrel hJ hcur hprev j,
    shifted_eq 19 (by decide) (by decide) x cur prev I I' J hI hI' hrel hJ hcur hprev j,
    hcur j]

end Cert.KernelIdeal.Halo

end
-- ==== Proof.IdealValue.lean ====
/-
  The result array after the run is the specified function of the argument array.

  At grid point t the output window's block index is (I, J) with I < 16, J < 4; the window of the current rows
  has the same block index and the window of the previous rows has block row I − 1 counted cyclically among the
  16. So what point t writes back is block (I, J) of the specified array. The 64 points' output blocks are all
  the 16 × 4 blocks of the array, so every entry is covered and the array ends at the specification.
-/
import proofs.«132993_j23081154249466_1_alg».proof.Proof.IdealRun
import proofs.«132993_j23081154249466_1_alg».proof.Proof.IdealBlock

set_option maxRecDepth 16384

noncomputable section

namespace Cert.KernelIdeal.Halo

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.HaloSpec

variable {F : FTy → Type} [FloatOps F]

variable (m : (ℓ : Loc nD τ sig) → Buf (Elt F) ℓ) (ρ : Dev nD → PrngReg)

theorem offsets_zero : (![0, 0] : Fin 2 → Nat) = fun _ => 0 := funext fun a => by fin_cases a <;> rfl

/-- The printed index maps over the grid: the current-rows window moves with the output window, the
    previous-rows window one block row behind it cyclically, and the output's block indices stay in range. -/
theorem index_facts : ∀ t : Fin cfg0.N,
    win0_1.index t (0 : Fin 2) = (win0_2.index t (0 : Fin 2) + 15) % 16
    ∧ win0_1.index t (1 : Fin 2) = win0_2.index t (1 : Fin 2)
    ∧ win0_0.index t (0 : Fin 2) = win0_2.index t (0 : Fin 2)
    ∧ win0_0.index t (1 : Fin 2) = win0_2.index t (1 : Fin 2)
    ∧ win0_2.index t (0 : Fin 2) < 16 ∧ win0_2.index t (1 : Fin 2) < 4 :=
  (by decide +kernel : ∀ t : Fin grid0.N, _)

/-- Every one of the 16 × 4 blocks is some point's output block. -/
theorem index_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- What point t writes back is its block of the specified array. -/
theorem flushed_eq (c : Dev nD) (t : Fin cfg0.N) :
    (dats m 0 c).flushed 2 t = ((cfg0.win 2).blk t).view.read (Elt F) (G (V m c main_arg0)) := by
  show (cfg0.win 2).cut (grid0.coords t) ((dats m 0 c).after 2 t) = _
  rw [after_2]
  unfold outBlock
  rw [View.canon_unit_zero offsets_zero]
  simp only [View.ld_unit_zero (S := S512x1024) offsets_zero]
  obtain ⟨e0, e1, e2, e3, e4, e5⟩ := index_facts t
  have e6 : win0_1.index t (0 : Fin 2) < 16 := by omega
  funext j
  have hj0 : (j 0).val < 512 := (j 0).isLt
  have hj1 : (j 1).val < 1024 := (j 1).isLt
  show k0_pay1 (iblk m c 0 t) (iblk m c 1 t) j = G (V m c main_arg0) (((cfg0.win 2).blk t).view.emb j)
  refine (point_eq (V m c main_arg0) (iblk m c 0 t) (iblk m c 1 t)
    (win0_2.index t (0 : Fin 2)) (win0_1.index t (0 : Fin 2)) (win0_2.index t (1 : Fin 2)) e4 e6 e0 e5 ?_ ?_ j).trans ?_
  · intro y
    have hy0 : (y 0).val < 512 := (y 0).isLt
    have hy1 : (y 1).val < 1024 := (y 1).isLt
    show V m c main_arg0 (((cfg0.win 0).blk t).view.emb y) = V m c main_arg0 (under _ _ e4 e5 y)
    refine congrArg _ (funext fun a => Fin.ext ?_)
    match a with
    | ⟨0, _⟩ => show win0_0.index t (0 : Fin 2) * 512 + 1 * (y 0).val = win0_2.index t (0 : Fin 2) * 512 + (y 0).val; omega
    | ⟨1, _⟩ => show win0_0.index t (1 : Fin 2) * 1024 + 1 * (y 1).val = win0_2.index t (1 : Fin 2) * 1024 + (y 1).val; omega
  · intro y
    have hy0 : (y 0).val < 512 := (y 0).isLt
    have hy1 : (y 1).val < 1024 := (y 1).isLt
    show V m c main_arg0 (((cfg0.win 1).blk t).view.emb y) = V m c main_arg0 (under _ _ e6 e5 y)
    refine congrArg _ (funext fun a => Fin.ext ?_)
    match a with
    | ⟨0, _⟩ => show win0_1.index t (0 : Fin 2) * 512 + 1 * (y 0).val = win0_1.index t (0 : Fin 2) * 512 + (y 0).val; omega
    | ⟨1, _⟩ => show win0_1.index t (1 : Fin 2) * 1024 + 1 * (y 1).val = win0_2.index t (1 : Fin 2) * 1024 + (y 1).val; omega
  · refine congrArg _ (funext fun a => Fin.ext ?_)
    match a with
    | ⟨0, _⟩ => show win0_2.index t (0 : Fin 2) * 512 + (j 0).val = win0_2.index t (0 : Fin 2) * 512 + 1 * (j 0).val; omega
    | ⟨1, _⟩ => show win0_2.index t (1 : Fin 2) * 1024 + (j 1).val = win0_2.index t (1 : Fin 2) * 1024 + 1 * (j 1).val; omega

/-- An entry of the array is in point t's output block iff each coordinate is in the block's range. -/
theorem mem_block (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every entry of the array is in the output block of the point whose block index is (row / 512, column / 1024). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the run. -/
theorem final (c : Dev nD) : (dats m 0 c).arrAt 2 cfg0.N = G (V m c main_arg0) :=
  (dats m 0 c).arrAt_eq_of_cover 2 (G (V m c main_arg0)) (fun t _ => flushed_eq m c t) covered

/-- The run: every weakly fair execution terminates with the result array at the specified function of the
    argument array as launched, and the argument array unchanged. -/
theorem run : θ_run defs (onTc (τ := τ) (main (F := F))) ⟨m, fun _ => 0, ρ⟩ (fun r => ∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0)) :=
  (θ_run defs _ _).mono (fun r h c => ⟨(h c).1.trans (final m c), (h c).2⟩) (run_out m ρ)

end Cert.KernelIdeal.Halo

end
-- ==== Proof.RefIsSpec.lean ====
/-
  The reference program computes the specified function.

  Each cyclic shift in the reference is a concatenation of the array's last p rows above its first 8192 − p
  rows; read at a row r this is the entry at row r − p counted cyclically, whichever piece r falls in. With
  the eight shifts read that way, the reference's chain of multiplications by constants and additions is,
  entry by entry, the specification's.
-/
import proofs.«132993_j23081154249466_1_alg».proof.Proof.Gen.ReferenceIdeal.Read
import proofs.«132993_j23081154249466_1_alg».proof.Proof.HaloSpec
import Idealize.ShloMosaic.Lib.Pipeline.Value

noncomputable section

namespace Cert.ReferenceIdeal.RefSpec

open Cert.ReferenceIdeal Cert.ReferenceIdeal.Gen Cert.ReferenceIdeal.Read Cert.HaloSpec
open Idealize.ShloMosaic Idealize.ShloMosaic.ValueIdx

variable {F : FTy → Type} [FloatOps F]

/-- The reference's shift by 2: rows below 2 come from the tail piece, the others from the head piece; either
    way the entry 2 rows back, cyclically. -/
theorem roll2 (x : (⟨S8192x4096, .f32⟩ : BufTy).Contents (Elt F)) (i : S8192x4096.Idx) :
    val_main_v1 (F := F) x i = x (back 2 i) := by
  unfold val_main_v1
  have hi0 : (i 0).val < 8192 := (i 0).isLt
  by_cases h : (i 0).val < 2
  · refine (concatenate_pair_apply_left (t := S8192x4096) (s₁ := S2x4096) (s₂ := S8190x4096) (0 : Fin 2) (val_main_call0_v0 (F := F) x) (val_main_call0_v1 (F := F) x)
      concatenates_S2x4096_S8190x4096_S8192x4096_d0 i rfl
      (ix2 (⟨(i 0).val, h⟩ : Fin 2) (⟨(i 1).val, (i 1).isLt⟩ : Fin 4096))
      (fun b => match b with | ⟨0, _⟩ => rfl | ⟨1, _⟩ => rfl)).trans ?_
    rw [val_main_call0_v0_apply]
    exact congrArg x (funext fun a => match a with
      | ⟨0, _⟩ => Fin.ext (by show 8190 + (i 0).val = ((i 0).val + (8192 - 2)) % 8192; omega)
      | ⟨1, _⟩ => Fin.ext rfl)
  · refine (concatenate_pair_apply_right (t := S8192x4096) (s₁ := S2x4096) (s₂ := S8190x4096) (0 : Fin 2) (val_main_call0_v0 (F := F) x) (val_main_call0_v1 (F := F) x)
      concatenates_S2x4096_S8190x4096_S8192x4096_d0 i rfl rfl
      (ix2 (⟨(i 0).val - 2, by omega⟩ : Fin 8190) (⟨(i 1).val, (i 1).isLt⟩ : Fin 4096))
      (fun b hb => match b, hb with | ⟨0, _⟩, hb => absurd rfl hb | ⟨1, _⟩, _ => rfl)
      (by show (i 0).val - 2 + 2 = (i 0).val; omega)).trans ?_
    rw [val_main_call0_v1_apply]
    exact congrArg x (funext fun a => match a with
      | ⟨0, _⟩ => Fin.ext (by show (i 0).val - 2 = ((i 0).val + (8192 - 2)) % 8192; omega)
      | ⟨1, _⟩ => Fin.ext rfl)

/-- The reference's shift by 3: rows below 3 come from the tail piece, the others from the head piece; either
    way the entry 3 rows back, cyclically. -/
theorem roll3 (x : (⟨S8192x4096, .f32⟩ : BufTy).Contents (Elt F)) (i : S8192x4096.Idx) :
    val_main_v5 (F := F) x i = x (back 3 i) := by
  unfold val_main_v5
  have hi0 : (i 0).val < 8192 := (i 0).isLt
  by_cases h : (i 0).val < 3
  · refine (concatenate_pair_apply_left (t := S8192x4096) (s₁ := S3x4096) (s₂ := S8189x4096) (0 : Fin 2) (val_main_call1_v0 (F := F) x) (val_main_call1_v1 (F := F) x)
      concatenates_S3x4096_S8189x4096_S8192x4096_d0 i rfl
      (ix2 (⟨(i 0).val, h⟩ : Fin 3) (⟨(i 1).val, (i 1).isLt⟩ : Fin 4096))
      (fun b => match b with | ⟨0, _⟩ => rfl | ⟨1, _⟩ => rfl)).trans ?_
    rw [val_main_call1_v0_apply]
    exact congrArg x (funext fun a => match a with
      | ⟨0, _⟩ => Fin.ext (by show 8189 + (i 0).val = ((i 0).val + (8192 - 3)) % 8192; omega)
      | ⟨1, _⟩ => Fin.ext rfl)
  · refine (concatenate_pair_apply_right (t := S8192x4096) (s₁ := S3x4096) (s₂ := S8189x4096) (0 : Fin 2) (val_main_call1_v0 (F := F) x) (val_main_call1_v1 (F := F) x)
      concatenates_S3x4096_S8189x4096_S8192x4096_d0 i rfl rfl
      (ix2 (⟨(i 0).val - 3, by omega⟩ : Fin 8189) (⟨(i 1).val, (i 1).isLt⟩ : Fin 4096))
      (fun b hb => match b, hb with | ⟨0, _⟩, hb => absurd rfl hb | ⟨1, _⟩, _ => rfl)
      (by show (i 0).val - 3 + 3 = (i 0).val; omega)).trans ?_
    rw [val_main_call1_v1_apply]
    exact congrArg x (funext fun a => match a with
      | ⟨0, _⟩ => Fin.ext (by show (i 0).val - 3 = ((i 0).val + (8192 - 3)) % 8192; omega)
      | ⟨1, _⟩ => Fin.ext rfl)

/-- The reference's shift by 5: rows below 5 come from the tail piece, the others from the head piece; either
    way the entry 5 rows back, cyclically. -/
theorem roll5 (x : (⟨S8192x4096, .f32⟩ : BufTy).Contents (Elt F)) (i : S8192x4096.Idx) :
    val_main_v9 (F := F) x i = x (back 5 i) := by
  unfold val_main_v9
  have hi0 : (i 0).val < 8192 := (i 0).isLt
  by_cases h : (i 0).val < 5
  · refine (concatenate_pair_apply_left (t := S8192x4096) (s₁ := S5x4096) (s₂ := S8187x4096) (0 : Fin 2) (val_main_call2_v0 (F := F) x) (val_main_call2_v1 (F := F) x)
      concatenates_S5x4096_S8187x4096_S8192x4096_d0 i rfl
      (ix2 (⟨(i 0).val, h⟩ : Fin 5) (⟨(i 1).val, (i 1).isLt⟩ : Fin 4096))
      (fun b => match b with | ⟨0, _⟩ => rfl | ⟨1, _⟩ => rfl)).trans ?_
    rw [val_main_call2_v0_apply]
    exact congrArg x (funext fun a => match a with
      | ⟨0, _⟩ => Fin.ext (by show 8187 + (i 0).val = ((i 0).val + (8192 - 5)) % 8192; omega)
      | ⟨1, _⟩ => Fin.ext rfl)
  · refine (concatenate_pair_apply_right (t := S8192x4096) (s₁ := S5x4096) (s₂ := S8187x4096) (0 : Fin 2) (val_main_call2_v0 (F := F) x) (val_main_call2_v1 (F := F) x)
      concatenates_S5x4096_S8187x4096_S8192x4096_d0 i rfl rfl
      (ix2 (⟨(i 0).val - 5, by omega⟩ : Fin 8187) (⟨(i 1).val, (i 1).isLt⟩ : Fin 4096))
      (fun b hb => match b, hb with | ⟨0, _⟩, hb => absurd rfl hb | ⟨1, _⟩, _ => rfl)
      (by show (i 0).val - 5 + 5 = (i 0).val; omega)).trans ?_
    rw [val_main_call2_v1_apply]
    exact congrArg x (funext fun a => match a with
      | ⟨0, _⟩ => Fin.ext (by show (i 0).val - 5 = ((i 0).val + (8192 - 5)) % 8192; omega)
      | ⟨1, _⟩ => Fin.ext rfl)

/-- The reference's shift by 7: rows below 7 come from the tail piece, the others from the head piece; either
    way the entry 7 rows back, cyclically. -/
theorem roll7 (x : (⟨S8192x4096, .f32⟩ : BufTy).Contents (Elt F)) (i : S8192x4096.Idx) :
    val_main_v13 (F := F) x i = x (back 7 i) := by
  unfold val_main_v13
  have hi0 : (i 0).val < 8192 := (i 0).isLt
  by_cases h : (i 0).val < 7
  · refine (concatenate_pair_apply_left (t := S8192x4096) (s₁ := S7x4096) (s₂ := S8185x4096) (0 : Fin 2) (val_main_call3_v0 (F := F) x) (val_main_call3_v1 (F := F) x)
      concatenates_S7x4096_S8185x4096_S8192x4096_d0 i rfl
      (ix2 (⟨(i 0).val, h⟩ : Fin 7) (⟨(i 1).val, (i 1).isLt⟩ : Fin 4096))
      (fun b => match b with | ⟨0, _⟩ => rfl | ⟨1, _⟩ => rfl)).trans ?_
    rw [val_main_call3_v0_apply]
    exact congrArg x (funext fun a => match a with
      | ⟨0, _⟩ => Fin.ext (by show 8185 + (i 0).val = ((i 0).val + (8192 - 7)) % 8192; omega)
      | ⟨1, _⟩ => Fin.ext rfl)
  · refine (concatenate_pair_apply_right (t := S8192x4096) (s₁ := S7x4096) (s₂ := S8185x4096) (0 : Fin 2) (val_main_call3_v0 (F := F) x) (val_main_call3_v1 (F := F) x)
      concatenates_S7x4096_S8185x4096_S8192x4096_d0 i rfl rfl
      (ix2 (⟨(i 0).val - 7, by omega⟩ : Fin 8185) (⟨(i 1).val, (i 1).isLt⟩ : Fin 4096))
      (fun b hb => match b, hb with | ⟨0, _⟩, hb => absurd rfl hb | ⟨1, _⟩, _ => rfl)
      (by show (i 0).val - 7 + 7 = (i 0).val; omega)).trans ?_
    rw [val_main_call3_v1_apply]
    exact congrArg x (funext fun a => match a with
      | ⟨0, _⟩ => Fin.ext (by show (i 0).val - 7 = ((i 0).val + (8192 - 7)) % 8192; omega)
      | ⟨1, _⟩ => Fin.ext rfl)

/-- The reference's shift by 11: rows below 11 come from the tail piece, the others from the head piece; either
    way the entry 11 rows back, cyclically. -/
theorem roll11 (x : (⟨S8192x4096, .f32⟩ : BufTy).Contents (Elt F)) (i : S8192x4096.Idx) :
    val_main_v17 (F := F) x i = x (back 11 i) := by
  unfold val_main_v17
  have hi0 : (i 0).val < 8192 := (i 0).isLt
  by_cases h : (i 0).val < 11
  · refine (concatenate_pair_apply_left (t := S8192x4096) (s₁ := S11x4096) (s₂ := S8181x4096) (0 : Fin 2) (val_main_call4_v0 (F := F) x) (val_main_call4_v1 (F := F) x)
      concatenates_S11x4096_S8181x4096_S8192x4096_d0 i rfl
      (ix2 (⟨(i 0).val, h⟩ : Fin 11) (⟨(i 1).val, (i 1).isLt⟩ : Fin 4096))
      (fun b => match b with | ⟨0, _⟩ => rfl | ⟨1, _⟩ => rfl)).trans ?_
    rw [val_main_call4_v0_apply]
    exact congrArg x (funext fun a => match a with
      | ⟨0, _⟩ => Fin.ext (by show 8181 + (i 0).val = ((i 0).val + (8192 - 11)) % 8192; omega)
      | ⟨1, _⟩ => Fin.ext rfl)
  · refine (concatenate_pair_apply_right (t := S8192x4096) (s₁ := S11x4096) (s₂ := S8181x4096) (0 : Fin 2) (val_main_call4_v0 (F := F) x) (val_main_call4_v1 (F := F) x)
      concatenates_S11x4096_S8181x4096_S8192x4096_d0 i rfl rfl
      (ix2 (⟨(i 0).val - 11, by omega⟩ : Fin 8181) (⟨(i 1).val, (i 1).isLt⟩ : Fin 4096))
      (fun b hb => match b, hb with | ⟨0, _⟩, hb => absurd rfl hb | ⟨1, _⟩, _ => rfl)
      (by show (i 0).val - 11 + 11 = (i 0).val; omega)).trans ?_
    rw [val_main_call4_v1_apply]
    exact congrArg x (funext fun a => match a with
      | ⟨0, _⟩ => Fin.ext (by show (i 0).val - 11 = ((i 0).val + (8192 - 11)) % 8192; omega)
      | ⟨1, _⟩ => Fin.ext rfl)

/-- The reference's shift by 13: rows below 13 come from the tail piece, the others from the head piece; either
    way the entry 13 rows back, cyclically. -/
theorem roll13 (x : (⟨S8192x4096, .f32⟩ : BufTy).Contents (Elt F)) (i : S8192x4096.Idx) :
    val_main_v21 (F := F) x i = x (back 13 i) := by
  unfold val_main_v21
  have hi0 : (i 0).val < 8192 := (i 0).isLt
  by_cases h : (i 0).val < 13
  · refine (concatenate_pair_apply_left (t := S8192x4096) (s₁ := S13x4096) (s₂ := S8179x4096) (0 : Fin 2) (val_main_call5_v0 (F := F) x) (val_main_call5_v1 (F := F) x)
      concatenates_S13x4096_S8179x4096_S8192x4096_d0 i rfl
      (ix2 (⟨(i 0).val, h⟩ : Fin 13) (⟨(i 1).val, (i 1).isLt⟩ : Fin 4096))
      (fun b => match b with | ⟨0, _⟩ => rfl | ⟨1, _⟩ => rfl)).trans ?_
    rw [val_main_call5_v0_apply]
    exact congrArg x (funext fun a => match a with
      | ⟨0, _⟩ => Fin.ext (by show 8179 + (i 0).val = ((i 0).val + (8192 - 13)) % 8192; omega)
      | ⟨1, _⟩ => Fin.ext rfl)
  · refine (concatenate_pair_apply_right (t := S8192x4096) (s₁ := S13x4096) (s₂ := S8179x4096) (0 : Fin 2) (val_main_call5_v0 (F := F) x) (val_main_call5_v1 (F := F) x)
      concatenates_S13x4096_S8179x4096_S8192x4096_d0 i rfl rfl
      (ix2 (⟨(i 0).val - 13, by omega⟩ : Fin 8179) (⟨(i 1).val, (i 1).isLt⟩ : Fin 4096))
      (fun b hb => match b, hb with | ⟨0, _⟩, hb => absurd rfl hb | ⟨1, _⟩, _ => rfl)
      (by show (i 0).val - 13 + 13 = (i 0).val; omega)).trans ?_
    rw [val_main_call5_v1_apply]
    exact congrArg x (funext fun a => match a with
      | ⟨0, _⟩ => Fin.ext (by show (i 0).val - 13 = ((i 0).val + (8192 - 13)) % 8192; omega)
      | ⟨1, _⟩ => Fin.ext rfl)

/-- The reference's shift by 17: rows below 17 come from the tail piece, the others from the head piece; either
    way the entry 17 rows back, cyclically. -/
theorem roll17 (x : (⟨S8192x4096, .f32⟩ : BufTy).Contents (Elt F)) (i : S8192x4096.Idx) :
    val_main_v25 (F := F) x i = x (back 17 i) := by
  unfold val_main_v25
  have hi0 : (i 0).val < 8192 := (i 0).isLt
  by_cases h : (i 0).val < 17
  · refine (concatenate_pair_apply_left (t := S8192x4096) (s₁ := S17x4096) (s₂ := S8175x4096) (0 : Fin 2) (val_main_call6_v0 (F := F) x) (val_main_call6_v1 (F := F) x)
      concatenates_S17x4096_S8175x4096_S8192x4096_d0 i rfl
      (ix2 (⟨(i 0).val, h⟩ : Fin 17) (⟨(i 1).val, (i 1).isLt⟩ : Fin 4096))
      (fun b => match b with | ⟨0, _⟩ => rfl | ⟨1, _⟩ => rfl)).trans ?_
    rw [val_main_call6_v0_apply]
    exact congrArg x (funext fun a => match a with
      | ⟨0, _⟩ => Fin.ext (by show 8175 + (i 0).val = ((i 0).val + (8192 - 17)) % 8192; omega)
      | ⟨1, _⟩ => Fin.ext rfl)
  · refine (concatenate_pair_apply_right (t := S8192x4096) (s₁ := S17x4096) (s₂ := S8175x4096) (0 : Fin 2) (val_main_call6_v0 (F := F) x) (val_main_call6_v1 (F := F) x)
      concatenates_S17x4096_S8175x4096_S8192x4096_d0 i rfl rfl
      (ix2 (⟨(i 0).val - 17, by omega⟩ : Fin 8175) (⟨(i 1).val, (i 1).isLt⟩ : Fin 4096))
      (fun b hb => match b, hb with | ⟨0, _⟩, hb => absurd rfl hb | ⟨1, _⟩, _ => rfl)
      (by show (i 0).val - 17 + 17 = (i 0).val; omega)).trans ?_
    rw [val_main_call6_v1_apply]
    exact congrArg x (funext fun a => match a with
      | ⟨0, _⟩ => Fin.ext (by show (i 0).val - 17 = ((i 0).val + (8192 - 17)) % 8192; omega)
      | ⟨1, _⟩ => Fin.ext rfl)

/-- The reference's shift by 19: rows below 19 come from the tail piece, the others from the head piece; either
    way the entry 19 rows back, cyclically. -/
theorem roll19 (x : (⟨S8192x4096, .f32⟩ : BufTy).Contents (Elt F)) (i : S8192x4096.Idx) :
    val_main_v29 (F := F) x i = x (back 19 i) := by
  unfold val_main_v29
  have hi0 : (i 0).val < 8192 := (i 0).isLt
  by_cases h : (i 0).val < 19
  · refine (concatenate_pair_apply_left (t := S8192x4096) (s₁ := S19x4096) (s₂ := S8173x4096) (0 : Fin 2) (val_main_call7_v0 (F := F) x) (val_main_call7_v1 (F := F) x)
      concatenates_S19x4096_S8173x4096_S8192x4096_d0 i rfl
      (ix2 (⟨(i 0).val, h⟩ : Fin 19) (⟨(i 1).val, (i 1).isLt⟩ : Fin 4096))
      (fun b => match b with | ⟨0, _⟩ => rfl | ⟨1, _⟩ => rfl)).trans ?_
    rw [val_main_call7_v0_apply]
    exact congrArg x (funext fun a => match a with
      | ⟨0, _⟩ => Fin.ext (by show 8173 + (i 0).val = ((i 0).val + (8192 - 19)) % 8192; omega)
      | ⟨1, _⟩ => Fin.ext rfl)
  · refine (concatenate_pair_apply_right (t := S8192x4096) (s₁ := S19x4096) (s₂ := S8173x4096) (0 : Fin 2) (val_main_call7_v0 (F := F) x) (val_main_call7_v1 (F := F) x)
      concatenates_S19x4096_S8173x4096_S8192x4096_d0 i rfl rfl
      (ix2 (⟨(i 0).val - 19, by omega⟩ : Fin 8173) (⟨(i 1).val, (i 1).isLt⟩ : Fin 4096))
      (fun b hb => match b, hb with | ⟨0, _⟩, hb => absurd rfl hb | ⟨1, _⟩, _ => rfl)
      (by show (i 0).val - 19 + 19 = (i 0).val; omega)).trans ?_
    rw [val_main_call7_v1_apply]
    exact congrArg x (funext fun a => match a with
      | ⟨0, _⟩ => Fin.ext (by show (i 0).val - 19 = ((i 0).val + (8192 - 19)) % 8192; omega)
      | ⟨1, _⟩ => Fin.ext rfl)

/-- The reference's result, entry by entry, is the specification's. -/
theorem ref_eq (x : (⟨S8192x4096, .f32⟩ : BufTy).Contents (Elt F)) : val_main_v33 (F := F) x = G x := by
  funext i
  simp only [val_main_v33_apply, val_main_v4_apply, val_main_v3_apply, val_main_v2_apply, val_main_cst_0_apply, roll2, val_main_v8_apply, val_main_v7_apply, val_main_v6_apply, val_main_cst_1_apply, roll3, val_main_v12_apply, val_main_v11_apply, val_main_v10_apply, val_main_cst_2_apply, roll5, val_main_v16_apply, val_main_v15_apply, val_main_v14_apply, val_main_cst_3_apply, roll7, val_main_v20_apply, val_main_v19_apply, val_main_v18_apply, val_main_cst_4_apply, roll11, val_main_v24_apply, val_main_v23_apply, val_main_v22_apply, val_main_cst_5_apply, roll13, val_main_v28_apply, val_main_v27_apply, val_main_v26_apply, val_main_cst_6_apply, roll17, val_main_v32_apply, val_main_v31_apply, val_main_v30_apply, val_main_cst_7_apply, roll19, val_main_v0_apply, val_main_cst_apply]
  rfl

end Cert.ReferenceIdeal.RefSpec

end
-- ==== Proof.lean ====
/-
  A cyclic row-halo filter, tiled: the kernel against its whole-array reference.

  For an array x of 8192 rows and 4096 columns both programs compute, at row r and column k,
      x[r, k] + Σ_p  x[(r − p) mod 8192, k] · w_p ,   p ∈ {2, 3, 5, 7, 11, 13, 17, 19},
  the eight weights fixed single-precision words (the same words in both programs) and the sum accumulated
  from zero in the order of the primes. The reference shifts the whole array cyclically, eight times, as a
  concatenation of its last p rows above the rest. The kernel works on 512 × 1024 blocks over a 16 × 4 grid:
  at each point it is handed the block of the current rows and, through a second window onto the SAME array,
  the block of the 512 rows before them (the first block row's predecessor is the last), stacks the two and
  cuts the eight shifted windows out of the stack; since no shift exceeds 19 rows, every row it needs is in
  one of the two blocks.

  The two programs apply the same operations to the same entries in the same order, so they agree at every
  float instance, with no algebraic law and no use of the inputs' finiteness: the agreement is an identity of
  indices, (512·I + r − p) mod 8192 read either through the reference's concatenation or through the kernel's
  two blocks. The ideal pass rewrote nothing, so the kernel's idealization is its own text.

  The frames of the two kernel programs are proved from the pipeline's launch theorem for windows that share
  an array: the argument array is only read, and is held at half the full share by each of the two input
  windows; the output window's array is held whole. The reference's frame is its run with the result dropped.
-/
import proofs.«132993_j23081154249466_1_alg».proof.Defs
import proofs.«132993_j23081154249466_1_alg».proof.Proof.Gen.Kernel
import proofs.«132993_j23081154249466_1_alg».proof.Proof.Gen.KernelIdeal
import proofs.«132993_j23081154249466_1_alg».proof.Proof.Gen.ReferenceIdeal
import proofs.«132993_j23081154249466_1_alg».proof.Proof.Gen.ReferenceIdeal.Run
import proofs.«132993_j23081154249466_1_alg».proof.Proof.Gen.ReferenceIdeal.Read
import proofs.«132993_j23081154249466_1_alg».proof.Proof.Gen.Pre_finite_inputs
import proofs.«132993_j23081154249466_1_alg».proof.Proof.BitsRun
import proofs.«132993_j23081154249466_1_alg».proof.Proof.IdealValue
import proofs.«132993_j23081154249466_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its argument array unchanged. -/
theorem frame_kernel : Cert.frame_Kernel := fun m ρ _ => Cert.Kernel.Halo.frame m ρ

/-- So does the kernel read at the extended reals. -/
theorem frame_kernelIdeal : Cert.frame_KernelIdeal := fun m ρ _ => Cert.KernelIdeal.Halo.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument array both programs end with the result array at the same function
    of it: the kernel by its run read block by block, the reference by its run read operation by operation. -/
theorem algebraic : Cert.algebraic_KernelIdeal_ReferenceIdeal := by
  intro m ρ m' ρ' _ hagree
  refine ⟨_, Cert.KernelIdeal.Halo.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, Cert.ReferenceIdeal.RefSpec.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
